-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x1024 : Shape := ⟨2, ![512, 1024]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel

variable [Facts]

def fn {F : FTy → Type} [FloatOps F] (main_arg0 : FVec F S512x1024 .f32) (main_arg1 : FVec F S512x1024 .f32) : IVec S_ 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_c : IVec S_ 1 := constantI S_ 1 1#1
  let main_v3 : IVec S_ 1 := (fun x v => Host.reduce IntOp.andi x v reducesTo_S512x1024_S_d0_1 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  main_v8
-- ==== Kernel.lean ====
abbrev S512x1024 : Shape := ⟨2, ![512, 1024]⟩
abbrev S1024x512 : Shape := ⟨2, ![1024, 512]⟩
abbrev S512x512 : Shape := ⟨2, ![512, 512]⟩
abbrev S1024x256 : Shape := ⟨2, ![1024, 256]⟩
abbrev S256x256 : Shape := ⟨2, ![256, 256]⟩
abbrev S32x256 : Shape := ⟨2, ![32, 256]⟩
abbrev S32x256x1 : Shape := ⟨3, ![32, 256, 1]⟩
abbrev S32x1x256 : Shape := ⟨3, ![32, 1, 256]⟩
abbrev S32x256x256 : Shape := ⟨3, ![32, 256, 256]⟩

abbrev nBuf : Space → Nat
  | .hbm => 5
  | .vmem => 6
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S1024x512, .f32⟩
  | .hbm, ⟨3, _⟩ => ⟨S1024x512, .f32⟩
  | .hbm, ⟨4, _⟩ => ⟨S512x512, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S256x256, .f32⟩
  | .local _ .vmem, ⟨5, _⟩ => ⟨S256x256, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

@[reducible] def k0_t1_loop : Scf.Loop 32 :=
  let c0_i32 : BitVec 32 := 0#32
  let c32_i32 : BitVec 32 := 32#32
  let v1 : BitVec 32 := Scalar.addi c0_i32 c32_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c32_i32_2 : BitVec 32 := 32#32
  let v4 : BitVec 32 := Scalar.muli arg5 c32_i32_2
  v4
def k0_off1 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32_2 : BitVec 32 := 32#32
  let v4 : BitVec 32 := Scalar.muli arg5 c32_i32_2
  let v5 : BitVec 32 := v4
  let v6 : Index := Scalar.indexCast v5
  let c0_3 : Index := 0#32
  ![v6.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  transposes_S512x1024_S1024x512_1_0 : S512x1024.Transposes [1, 0] S1024x512
  h_S32x256 : 0 < S32x256.numel
  shapeCasts_S32x256_S32x256 : S32x256.ShapeCasts S32x256
  shapeCasts_S32x256_S32x256x1 : S32x256.ShapeCasts S32x256x1
  shapeCasts_S32x256_S32x1x256 : S32x256.ShapeCasts S32x1x256
  broadcasts_S32x256x1_S32x256x256 : S32x256x1.Broadcasts S32x256x256
  broadcasts_S32x1x256_S32x256x256 : S32x1x256.Broadcasts S32x256x256
  reduces_S32x256x256_S256x256 : S32x256x256.Reduces [0] S256x256
  inb_S256x256_S256x256_0_0 : ∀ a, (![0, 0] : Fin 2 → Nat) a + S256x256.size a ≤ S256x256.size a
  h_S256x256 : 0 < S256x256.numel
  hrank0 : 0 < grid0.rank
  k0_t1_ok : k0_t1_loop.OK
  k0_mult1_dvd : ∀ k0_t1 : Fin k0_t1_loop.trips, 32 ∣ (k0_mult1 k0_t1).toNat
  k0_off1_inb : ∀ k0_t1 : Fin k0_t1_loop.trips, ∀ a, (k0_off1 k0_t1) a + S32x256.size a ≤ S1024x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S1024x512.size a
  hwx0_0 : ∀ i : grid0.Coords, EltTy.bits .f32 = 32 ∨ (Rect.block (s := S1024x512) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x512.size a
  hwx0_1 : ∀ i : grid0.Coords, EltTy.bits .f32 = 32 ∨ (Rect.block (s := S1024x512) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S512x512.size a
  hwx0_2 : ∀ i : grid0.Coords, EltTy.bits .f32 = 32 ∨ (Rect.block (s := S512x512) S256x256.size (cc0_transform_2 i) (hinb0_2 i)).WholeWords (EltTy.packing .f32)

variable [Facts₀]

abbrev win0_0 : Pipeline.Window sig grid0 :=
  Pipeline.Window.ofSpec (Memref.whole main_v0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S512x1024 : Shape := ⟨2, ![512, 1024]⟩
abbrev S1x512x1024 : Shape := ⟨3, ![1, 512, 1024]⟩
abbrev S512x1x1024 : Shape := ⟨3, ![512, 1, 1024]⟩
abbrev S512x512x1024 : Shape := ⟨3, ![512, 512, 1024]⟩
abbrev S_ : Shape := ⟨0, ![]⟩
abbrev S512x512 : Shape := ⟨2, ![512, 512]⟩

abbrev nBuf : Space → Nat
  | .hbm => 9
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S1x512x1024, .f32⟩
  | .hbm, ⟨3, _⟩ => ⟨S512x1x1024, .f32⟩
  | .hbm, ⟨4, _⟩ => ⟨S512x512x1024, .f32⟩
  | .hbm, ⟨5, _⟩ => ⟨S512x512x1024, .f32⟩
  | .hbm, ⟨6, _⟩ => ⟨S512x512x1024, .f32⟩
  | .hbm, ⟨7, _⟩ => ⟨S_, .f32⟩
  | .hbm, ⟨8, _⟩ => ⟨S512x512, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  bcast_S512x1024_S1x512x1024_1_2 : S512x1024.BroadcastsInDim S1x512x1024 (![1, 2] : Fin 2 → Fin S1x512x1024.rank)
  bcast_S512x1024_S512x1x1024_0_2 : S512x1024.BroadcastsInDim S512x1x1024 (![0, 2] : Fin 2 → Fin S512x1x1024.rank)
  bcast_S1x512x1024_S512x512x1024_0_1_2 : S1x512x1024.BroadcastsInDim S512x512x1024 (![0, 1, 2] : Fin 3 → Fin S512x512x1024.rank)
  bcast_S512x1x1024_S512x512x1024_0_1_2 : S512x1x1024.BroadcastsInDim S512x512x1024 (![0, 1, 2] : Fin 3 → Fin S512x512x1024.rank)
  reducesTo_S512x512x1024_S512x512_d2 : S512x512x1024.ReducesTo [2] S512x512
  h_S_ : 0 < S_.numel

variable [Facts₀]

class Facts : Prop extends Facts₀ where

variable [Facts]
-- ==== Proof.KernelLoop.lean ====
/-
  What the kernel's body leaves in its output block, before any arithmetic is read: the block is the value the
  counted loop carries after its last trip, the carried value starts at the splat of −∞, and one trip replaces the
  carried value by the body's arithmetic of it and of the two 32-row strips of the input blocks the trip loads.
-/
import proofs.«137153_j64433099374740_2_alg».proof.Proof.Gen.KernelIdeal.Frame
import Idealize.ShloMosaic.Lib.Pipeline.Value

set_option maxRecDepth 16384

noncomputable section

namespace Cert.KernelIdeal.Loop

open Cert.KernelIdeal Cert.KernelIdeal.Gen Idealize.ShloMosaic Idealize.ShloMosaic.TcCoe Idealize.SL.Sem

variable {F : FTy → Type} [FloatOps F]

theorem zero_offsets : (![0, 0] : Fin 2 → Nat) = fun _ => 0 := funext fun a => by fin_cases a <;> rfl

/-- The loop makes 32 trips. -/
theorem trips_eq : k0_t1_loop.trips = 32 := by decide

/-- The carried value before trip `n`, the staging memrefs holding `x0` and `x1`. -/
abbrev carried (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S256x256 .f32) (harg4 : arg4.IsWhole)
    (x0 x1 : Vec F S1024x256 .f32) (n : ℕ) : FVec F S256x256 .f32 :=
  st_k0_t1 (F := F) Variants.none c none i arg2 harg2 arg3 harg3 arg4 harg4 (harg2.unread x0) (harg3.unread x1) k0_pay1 n

/-- The body's one store writes the whole block, so the block ends at the value carried out of the loop. -/
theorem out_eq_carried (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S256x256 .f32) (harg4 : arg4.IsWhole)
    (x0 x1 : Vec F S1024x256 .f32) :
    out0_A_2 c i arg2 harg2 arg3 harg3 arg4 harg4 x0 x1 = carried c i arg2 harg2 arg3 harg3 arg4 harg4 x0 x1 k0_t1_loop.trips := by
  unfold out0_A_2
  rw [View.read_writes_eq_canon _ _ _ (cover0_A_2 c i arg2 harg2 arg3 harg3 arg4 harg4 x0 x1)]
  unfold kernelRun0_A
  dsimp only
  rw [View.canon_unit_zero zero_offsets]

/-- One trip: the carried value becomes the body's arithmetic of it and of rows `32 k … 32 k + 31` of the two blocks. -/
theorem carried_succ (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S256x256 .f32) (harg4 : arg4.IsWhole)
    (x0 x1 : Vec F S1024x256 .f32) (k : Fin k0_t1_loop.trips) :
    carried c i arg2 harg2 arg3 harg3 arg4 harg4 x0 x1 (k.val + 1)
      = k0_pay2 (carried c i arg2 harg2 arg3 harg3 arg4 harg4 x0 x1 k.val)
          (View.ld x0 (Rect.unit (s := S1024x256) (k0_off1 k) S32x256.size (k0_off1_inb k)))
          (View.ld x1 (Rect.unit (s := S1024x256) (k0_off1 k) S32x256.size (k0_off1_inb k))) := by
  unfold carried
  rw [st_k0_t1_succ]
  unfold tripR_k0_t1 trip_k0_t1
  dsimp only
  rw [View.readAt_eq_ld, View.readAt_eq_ld, harg2.read_unread, harg3.read_unread]

/-- Before the first trip the carried value is the splat of the pattern 0xFF800000. -/
theorem carried_zero (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S256x256 .f32) (harg4 : arg4.IsWhole)
    (x0 x1 : Vec F S1024x256 .f32) :
    carried c i arg2 harg2 arg3 harg3 arg4 harg4 x0 x1 0 = k0_pay1 := rfl

end Cert.KernelIdeal.Loop

end
-- ==== Proof.MaxPlus.lean ====
/-
  The max-plus ("tropical") product of two matrices of extended reals, as ONE function of the two argument arrays:
  entry (b, o) is the maximum over i of W[o, i] + x[b, i], the empty maximum being −∞.  Beside it, the one
  order-theoretic fact the certificate rests on: a maximum of 1024 terms may be taken 32 terms at a time, each chunk's
  maximum folded into a running maximum that starts at −∞.  Both are said through upper bounds — a maximum lies below
  z exactly when every term does — so no rearrangement of a fold is ever written out.
-/
import Idealize.ShloMosaic.PureOps.Ideal
import Idealize.ShloMosaic.Lib.ValueIdx

noncomputable section

namespace Cert.MaxPlus

open Idealize.ShloMosaic Idealize.ShloMosaic.ValueIdx

/-- The pattern 0xFF800000 is −∞, the least extended real. -/
theorem negInf : Ideal.ofBits .f32 0xFF800000#32 = (⊥ : EReal) := by simp [Ideal.ofBits, Ideal.ieee]

/-- A maximum folded from −∞ lies below `z` exactly when every term does. -/
theorem fold_max_bot_le_iff {ι : Type} (s : Finset ι) (f : ι → EReal) (z : EReal) :
    s.fold max ⊥ f ≤ z ↔ ∀ i ∈ s, f i ≤ z := by
  rw [Finset.fold_max_le]
  exact ⟨fun h => h.2, fun h => ⟨bot_le, h⟩⟩

/-- THE SPECIFICATION: the max-plus product of `x : [512, 1024]` and `W : [512, 1024]`, at (b, o) the maximum over
    the 1024 inner coordinates of `W[o, i] + x[b, i]`. -/
def maxPlus (x W : (⟨2, ![512, 1024]⟩ : Shape).Idx → EReal) : (⟨2, ![512, 512]⟩ : Shape).Idx → EReal :=
  fun j => (Finset.univ : Finset (Fin 1024)).fold max ⊥ fun i => W (ix2 (j 1) i) + x (ix2 (j 0) i)

/-- The running maximum: a sequence that starts at −∞ and at step `k` takes the maximum with the maximum of terms
    `32 k … 32 k + 31` has, after `n` steps, exactly the upper bounds of the first `32 n` terms. -/
theorem running_le_iff (f : Fin 1024 → EReal) (a : ℕ → EReal) (h0 : a 0 = ⊥)
    (hs : ∀ k : Fin 32, a (k.val + 1) = max (a k.val)
      ((Finset.univ : Finset (Fin 32)).fold max ⊥ fun r => f ⟨32 * k.val + r.val, by have := k.isLt; have := r.isLt; omega⟩))
    (z : EReal) : ∀ n : ℕ, n ≤ 32 → (a n ≤ z ↔ ∀ i : Fin 1024, i.val < 32 * n → f i ≤ z)
  | 0, _ => by
    rw [h0]
    exact ⟨fun _ i hi => absurd hi (by omega), fun _ => bot_le⟩
  | n + 1, hn => by
    have ih := running_le_iff f a h0 hs z n (by omega)
    rw [hs ⟨n, by omega⟩, max_le_iff, ih, fold_max_bot_le_iff]
    constructor
    · rintro ⟨h1, h2⟩ i hi
      by_cases hlt : i.val < 32 * n
      · exact h1 i hlt
      · have e : i = ⟨32 * n + (⟨i.val - 32 * n, by omega⟩ : Fin 32).val, by have := i.isLt; show 32 * n + (i.val - 32 * n) < 1024; omega⟩ :=
          Fin.ext (by show i.val = 32 * n + (i.val - 32 * n); omega)
        rw [e]
        exact h2 ⟨i.val - 32 * n, by omega⟩ (Finset.mem_univ _)
    · intro h
      exact ⟨fun i hi => h i (by omega), fun r _ => h _ (by have := r.isLt; show 32 * n + r.val < 32 * (n + 1); omega)⟩

/-- So after all 32 steps the running maximum is the maximum of all 1024 terms. -/
theorem running_eq (f : Fin 1024 → EReal) (a : ℕ → EReal) (h0 : a 0 = ⊥)
    (hs : ∀ k : Fin 32, a (k.val + 1) = max (a k.val)
      ((Finset.univ : Finset (Fin 32)).fold max ⊥ fun r => f ⟨32 * k.val + r.val, by have := k.isLt; have := r.isLt; omega⟩)) :
    a 32 = (Finset.univ : Finset (Fin 1024)).fold max ⊥ f :=
  eq_of_forall_ge_iff fun z => by
    rw [running_le_iff f a h0 hs z 32 le_rfl, fold_max_bot_le_iff]
    exact ⟨fun h i _ => h i i.isLt, fun h i _ => h i (Finset.mem_univ i)⟩

end Cert.MaxPlus

end
-- ==== Proof.TripValue.lean ====
/-
  One trip's arithmetic, read at one entry of the 256 × 256 accumulator.  The body forms the 32 × 256 × 256 array whose
  (r, p, q) entry is strip₀[r, p] + strip₁[r, q] — the first strip broadcast along the last axis, the second along the
  middle one —, takes its maximum over r from −∞, and takes the maximum of that with the carried value.  So entry (p, q)
  becomes  max (acc[p, q]) (max over the 32 rows r of strip₀[r, p] + strip₁[r, q]).
-/
import proofs.«137153_j64433099374740_2_alg».proof.Proof.Gen.KernelIdeal.Skeleton
import proofs.«137153_j64433099374740_2_alg».proof.Proof.MaxPlus
import Idealize.ShloMosaic.Lib.ValueIdx
import Idealize.ShloMosaic.Lib.Pipeline.Value
import Idealize.ShloMosaic.PureOps.Ideal.Laws

noncomputable section

namespace Cert.KernelIdeal.Trip

open Cert.KernelIdeal Cert.KernelIdeal.Gen Idealize.ShloMosaic Idealize.ShloMosaic.ValueIdx

/-- Reduced index (p, q) with row `r` put back on the dropped leading axis is (r, p, q). -/
theorem lift_eq (h : S32x256x256.Reduces [0] S256x256) (p q : Fin 256) (r : Fin 32) :
    h.lift (ix2 p q) r = ix3 r p q := by
  funext c; apply Fin.ext
  fin_cases c <;> rfl

/-- A 32 × 256 strip viewed 32 × 256 × 1 and broadcast along the last axis reads, at (r, p, q), the strip at (r, p). -/
theorem alongLast_apply (v : S32x256.Idx → EReal) (h1 : S32x256.ShapeCasts S32x256) (h2 : S32x256.ShapeCasts S32x256x1)
    (h3 : S32x256x1.Broadcasts S32x256x256) (r : Fin 32) (p q : Fin 256) :
    broadcastTo S32x256x256 (shapeCast S32x256x1 (shapeCast S32x256 v h1) h2) h3 (ix3 r p q) = v (ix2 r p) := by
  refine (broadcastTo_apply _ h3 (ix3 r p q) (ix3 r p (0 : Fin 1)) fun a => ?_).trans ?_
  · match a with
    | ⟨0, _⟩ => show r.val = if (32 : Nat) = 1 then 0 else r.val; rw [if_neg (by decide)]
    | ⟨1, _⟩ => show p.val = if (256 : Nat) = 1 then 0 else p.val; rw [if_neg (by decide)]
    | ⟨2, _⟩ => show 0 = if (1 : Nat) = 1 then 0 else q.val; rw [if_pos rfl]
  · refine (shapeCast_apply _ h2 (ix3 r p (0 : Fin 1)) (ix2 r p) ?_).trans ?_
    · rw [Shape.rowMajor_val_two, Shape.rowMajor_val_three]
      show r.val * 256 + p.val = (r.val * 256 + p.val) * 1 + 0
      omega
    · rw [shapeCast_self]

/-- A 32 × 256 strip viewed 32 × 1 × 256 and broadcast along the middle axis reads, at (r, p, q), the strip at (r, q). -/
theorem alongMiddle_apply (v : S32x256.Idx → EReal) (h1 : S32x256.ShapeCasts S32x256) (h2 : S32x256.ShapeCasts S32x1x256)
    (h3 : S32x1x256.Broadcasts S32x256x256) (r : Fin 32) (p q : Fin 256) :
    broadcastTo S32x256x256 (shapeCast S32x1x256 (shapeCast S32x256 v h1) h2) h3 (ix3 r p q) = v (ix2 r q) := by
  refine (broadcastTo_apply _ h3 (ix3 r p q) (ix3 r (0 : Fin 1) q) fun a => ?_).trans ?_
  · match a with
    | ⟨0, _⟩ => show r.val = if (32 : Nat) = 1 then 0 else r.val; rw [if_neg (by decide)]
    | ⟨1, _⟩ => show 0 = if (1 : Nat) = 1 then 0 else p.val; rw [if_pos rfl]
    | ⟨2, _⟩ => show q.val = if (256 : Nat) = 1 then 0 else q.val; rw [if_neg (by decide)]
  · refine (shapeCast_apply _ h2 (ix3 r (0 : Fin 1) q) (ix2 r q) ?_).trans ?_
    · rw [Shape.rowMajor_val_two, Shape.rowMajor_val_three]
      show r.val * 256 + q.val = (r.val * 1 + 0) * 256 + q.val
      omega
    · rw [shapeCast_self]

/-- The maximum over the leading axis of a 32 × 256 × 256 array, taken from −∞, read at (p, q). -/
theorem rowsMax_apply (src : FVec Ideal S32x256x256 .f32) (h : S32x256x256.Reduces [0] S256x256) (hφ : FKind.Formats .f32)
    (hacc : (0xFF800000#32 : BitVec 32) = FKind.maximumf.neutral .f32 hφ) (p q : Fin 256) :
    multiReduction .maximumf [0] S256x256 src 0xFF800000#32 h hφ hacc (ix2 p q)
      = (Finset.univ : Finset (Fin 32)).fold max ⊥ fun r => src (ix3 r p q) := by
  refine (Ideal.multiReduction_maximumf_single src 0xFF800000#32 h hφ hacc (ix2 p q)).trans ?_
  show (Finset.univ : Finset (Fin 32)).fold max (Ideal.ofBits .f32 0xFF800000#32) _ = _
  rw [Cert.MaxPlus.negInf]
  exact congrArg (fun f => (Finset.univ : Finset (Fin 32)).fold max ⊥ f) (funext fun r => congrArg src (lift_eq h p q r))

/-- The maximum of the carried value with the rows' maximum of a sum of two arrays, read at (p, q). -/
theorem pay_core (acc : FVec Ideal S256x256 .f32) (a b : FVec Ideal S32x256x256 .f32) (h : S32x256x256.Reduces [0] S256x256)
    (hφ : FKind.Formats .f32) (hacc : (0xFF800000#32 : BitVec 32) = FKind.maximumf.neutral .f32 hφ) (p q : Fin 256) :
    maximumf acc (multiReduction .maximumf [0] S256x256 (addf a b) 0xFF800000#32 h hφ hacc) (ix2 p q)
      = max (acc (ix2 p q)) ((Finset.univ : Finset (Fin 32)).fold max ⊥ fun r => a (ix3 r p q) + b (ix3 r p q)) :=
  congrArg (max (acc (ix2 p q))) (rowsMax_apply (addf a b) h hφ hacc p q)

/-- ONE TRIP at entry (p, q): the carried value's entry against the maximum, over the strips' 32 rows, of the sums. -/
theorem pay_apply (acc : FVec Ideal S256x256 .f32) (v7 v10 : Vec Ideal S32x256 .f32) (p q : Fin 256) :
    k0_pay2 (F := Ideal) acc v7 v10 (ix2 p q)
      = max (acc (ix2 p q)) ((Finset.univ : Finset (Fin 32)).fold max ⊥ fun r => v7 (ix2 r p) + v10 (ix2 r q)) := by
  unfold k0_pay2
  refine (pay_core acc _ _ _ _ _ p q).trans ?_
  refine congrArg (max (acc (ix2 p q))) (congrArg (fun f => (Finset.univ : Finset (Fin 32)).fold max ⊥ f) (funext fun (r : Fin 32) => ?_))
  rw [alongLast_apply, alongMiddle_apply]

/-- Before the first trip every entry is −∞. -/
theorem init_apply (j : S256x256.Idx) : k0_pay1 (F := Ideal) j = ⊥ := by
  show Ideal.ofBits .f32 0xFF800000#32 = ⊥
  exact Cert.MaxPlus.negInf

end Cert.KernelIdeal.Trip

end
-- ==== Proof.BlockValue.lean ====
/-
  The output block as one function of the two input blocks.  The loop's 32 trips walk the 1024 rows of the input blocks
  32 at a time; trip k folds the maximum over rows 32 k … 32 k + 31 of  blk₀[i, p] + blk₁[i, q]  into the carried
  entry (p, q), which started at −∞.  A running maximum over consecutive chunks is the maximum over everything, so
  entry (p, q) of the block ends at the maximum over all 1024 rows i of  blk₀[i, p] + blk₁[i, q].
-/
import proofs.«137153_j64433099374740_2_alg».proof.Proof.KernelLoop
import proofs.«137153_j64433099374740_2_alg».proof.Proof.TripValue
import proofs.«137153_j64433099374740_2_alg».proof.Proof.MaxPlus

set_option maxRecDepth 16384

noncomputable section

namespace Cert.KernelIdeal.Block

open Cert.KernelIdeal Cert.KernelIdeal.Gen Cert.KernelIdeal.Loop Idealize.ShloMosaic Idealize.ShloMosaic.ValueIdx
open Idealize.ShloMosaic.TcCoe Idealize.SL.Sem

/-- Row `r` of the 32-row strip that trip `k` loads is row `32 k + r` of the block, column for column. -/
theorem strip_apply (x : Vec Ideal S1024x256 .f32) (k : Fin k0_t1_loop.trips) (r : Fin 32) (p : Fin 256)
    (h : 32 * k.val + r.val < 1024) :
    View.ld (Val := Elt Ideal) x (Rect.unit (s := S1024x256) (k0_off1 k) S32x256.size (k0_off1_inb k)) (ix2 r p)
      = x (ix2 (⟨32 * k.val + r.val, h⟩ : Fin 1024) p) := by
  show x _ = x _
  refine congrArg x (funext fun a => Fin.ext ?_)
  match a with
  | ⟨0, _⟩ =>
    show k0_off1 k 0 + 1 * r.val = 32 * k.val + r.val
    rw [k0_off1_eq]
    show 32 * k.val + 1 * r.val = 32 * k.val + r.val
    omega
  | ⟨1, _⟩ =>
    show k0_off1 k 1 + 1 * p.val = p.val
    rw [k0_off1_eq]
    show 0 + 1 * p.val = p.val
    omega

/-- THE BLOCK: entry (p, q) is the maximum over the 1024 rows of the two input blocks' column sums. -/
theorem block_apply (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S256x256 .f32) (harg4 : arg4.IsWhole)
    (x0 x1 : Vec Ideal S1024x256 .f32) (p q : Fin 256) :
    out0_A_2 (F := Ideal) c i arg2 harg2 arg3 harg3 arg4 harg4 x0 x1 (ix2 p q)
      = (Finset.univ : Finset (Fin 1024)).fold max ⊥ fun i => x0 (ix2 i p) + x1 (ix2 i q) := by
  rw [out_eq_carried, trips_eq]
  refine Cert.MaxPlus.running_eq (fun i => x0 (ix2 i p) + x1 (ix2 i q))
    (fun n => carried (F := Ideal) c i arg2 harg2 arg3 harg3 arg4 harg4 x0 x1 n (ix2 p q)) ?_ ?_
  · exact Cert.KernelIdeal.Trip.init_apply _
  · intro k
    have hk : k.val < k0_t1_loop.trips := by rw [trips_eq]; exact k.isLt
    show carried (F := Ideal) c i arg2 harg2 arg3 harg3 arg4 harg4 x0 x1 ((⟨k.val, hk⟩ : Fin k0_t1_loop.trips).val + 1) (ix2 p q) = _
    rw [carried_succ, Cert.KernelIdeal.Trip.pay_apply]
    refine congrArg (max _) (congrArg (fun f => (Finset.univ : Finset (Fin 32)).fold max ⊥ f) (funext fun (r : Fin 32) => ?_))
    have h : 32 * k.val + r.val < 1024 := by have := k.isLt; have := r.isLt; omega
    rw [strip_apply x0 ⟨k.val, hk⟩ r p h, strip_apply x1 ⟨k.val, hk⟩ r q h]

end Cert.KernelIdeal.Block

end
-- ==== Proof.KernelValue.lean ====
/-
  From blocks to the array.  Grid point (I, J) stages columns 256 I … 256 I + 255 of xᵀ and columns 256 J … 256 J + 255
  of Wᵀ (all 1024 rows of each) and writes block (I, J) of the result.  Entry (p, q) of that block is the maximum over
  the rows i of  xᵀ[i, 256 I + p] + Wᵀ[i, 256 J + q]  =  x[256 I + p, i] + W[256 J + q, i] — the max-plus product at
  (256 I + p, 256 J + q), the sum's two terms exchanged.  The four blocks tile the 512 × 512 result, so after the run the
  result array is the max-plus product of the two arguments.
-/
import proofs.«137153_j64433099374740_2_alg».proof.Proof.Gen.KernelIdeal.Value
import proofs.«137153_j64433099374740_2_alg».proof.Proof.BlockValue
import Idealize.ShloMosaic.Lib.ValueLayout
import Idealize.ShloMosaic.Lib.StableHlo.Run

set_option maxRecDepth 16384

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The region finds the transpose of the first argument in window 0's array, -/
theorem V_xt (c : Dev nD) : (V m c main_v0 : S1024x512.Idx → EReal)
    = transpose S1024x512 [1, 0] (m ((c : Thread nD τ).loc main_arg0)) transposes_S512x1024_S1024x512_1_0 := by
  dsimp only [Gen.V, Gen.hostOps0]; after_results

/-- and the transpose of the second in window 1's. -/
theorem V_wt (c : Dev nD) : (V m c main_v1 : S1024x512.Idx → EReal)
    = transpose S1024x512 [1, 0] (m ((c : Thread nD τ).loc main_arg1)) transposes_S512x1024_S1024x512_1_0 := by
  dsimp only [Gen.V, Gen.hostOps0]; after_results

/-- A transposed 512 × 1024 array at the index with coordinates (i, b) is the array at (b, i). -/
theorem transposed_apply (X : S512x1024.Idx → EReal) (h : S512x1024.Transposes [1, 0] S1024x512) (k : S1024x512.Idx)
    (i : Fin 1024) (b : Fin 512) (h0 : (k 0).val = i.val) (h1 : (k 1).val = b.val) :
    transpose S1024x512 [1, 0] X h k = X (ix2 b i) := by
  have e : k = ix2 i b := funext fun a => Fin.ext (by match a with | ⟨0, _⟩ => exact h0 | ⟨1, _⟩ => exact h1)
  rw [e]
  exact transpose_ix2_apply X h i b

/-- A block entry against the product: if column `p` of the first block is row `b` of x and column `q` of the second is
    row `o` of W, the maximum over the rows of the blocks' sums is the max-plus product at (b, o) — the two terms of each
    sum exchanged. -/
theorem block_is_maxPlus (X W : S512x1024.Idx → EReal) (x0 x1 : S1024x256.Idx → EReal) (b o : Fin 512) (p q : Fin 256)
    (hx : ∀ i : Fin 1024, x0 (ix2 i p) = X (ix2 b i)) (hw : ∀ i : Fin 1024, x1 (ix2 i q) = W (ix2 o i)) :
    (Finset.univ : Finset (Fin 1024)).fold max ⊥ (fun i => x0 (ix2 i p) + x1 (ix2 i q)) = Cert.MaxPlus.maxPlus X W (ix2 b o) := by
  show _ = (Finset.univ : Finset (Fin 1024)).fold max ⊥ fun i => W (ix2 o i) + X (ix2 b i)
  refine congrArg (fun f => (Finset.univ : Finset (Fin 1024)).fold max ⊥ f) (funext fun (i : Fin 1024) => ?_)
  rw [hx, hw]
  exact add_comm _ _

/-- The printed index maps over the four grid points: the inputs' blocks span all rows; window 0's column block is the
    result's row block, window 1's the result's column block. -/
theorem idx_facts : ∀ t : Fin cfg0.N, win0_0.index t (0 : Fin 2) = 0
    ∧ win0_0.index t (1 : Fin 2) = win0_2.index t (0 : Fin 2)
    ∧ win0_1.index t (0 : Fin 2) = 0
    ∧ win0_1.index t (1 : Fin 2) = win0_2.index t (1 : Fin 2)
    ∧ win0_2.index t (0 : Fin 2) ≤ 1 ∧ win0_2.index t (1 : Fin 2) ≤ 1 :=
  (by decide +kernel : ∀ t : Fin grid0.N, _)

/-- Every one of the 2 × 2 result blocks is some grid point's. -/
theorem idx_onto : ∀ (q0 q1 : Fin 2), ∃ t : Fin cfg0.N, win0_2.index t = ![q0.val, q1.val] :=
  (by decide +kernel : ∀ (q0 q1 : Fin 2), ∃ t : Fin grid0.N, win0_2.index t = ![q0.val, q1.val])

/-- WHAT POINT `t` WRITES BACK is block `t` of the max-plus product of the two arguments. -/
theorem flushed_eq (c : Dev nD) (t : Fin cfg0.N) :
    (dats m 0 c).flushed 2 t = ((cfg0.win 2).blk t).view.read (Elt Ideal)
      (Cert.MaxPlus.maxPlus (m ((c : Thread nD τ).loc main_arg0)) (m ((c : Thread nD τ).loc main_arg1))) := by
  rw [flushed2_A]
  obtain ⟨e0, e1, e2, e3, e4, e5⟩ := idx_facts t
  funext j
  obtain ⟨p, q, rfl⟩ : ∃ (p q : Fin 256), j = ix2 p q := ⟨j 0, j 1, eq_ix2 j⟩
  have hp : p.val < 256 := p.isLt
  have hq : q.val < 256 := q.isLt
  show out0_A_2 (F := Ideal) c (grid0.coords t) (ms0_0 t) (hs0_0 t) (ms0_1 t) (hs0_1 t) (ms0_2 t) (hs0_2 t) (iblk m c 0 t) (iblk m c 1 t) (ix2 p q)
    = Cert.MaxPlus.maxPlus (m ((c : Thread nD τ).loc main_arg0)) (m ((c : Thread nD τ).loc main_arg1)) (((cfg0.win 2).blk t).view.emb (ix2 p q))
  refine (Cert.KernelIdeal.Block.block_apply c (grid0.coords t) (ms0_0 t) (hs0_0 t) (ms0_1 t) (hs0_1 t) (ms0_2 t) (hs0_2 t) (iblk m c 0 t) (iblk m c 1 t) p q).trans ?_
  let b : Fin 512 := ⟨win0_2.index t (0 : Fin 2) * 256 + p.val, by omega⟩
  let o : Fin 512 := ⟨win0_2.index t (1 : Fin 2) * 256 + q.val, by omega⟩
  have he : ((cfg0.win 2).blk t).view.emb (ix2 p q) = ix2 b o := by
    funext a; apply Fin.ext
    match a with
    | ⟨0, _⟩ => show win0_2.index t (0 : Fin 2) * 256 + 1 * p.val = win0_2.index t (0 : Fin 2) * 256 + p.val; omega
    | ⟨1, _⟩ => show win0_2.index t (1 : Fin 2) * 256 + 1 * q.val = win0_2.index t (1 : Fin 2) * 256 + q.val; omega
  rw [he]
  refine block_is_maxPlus _ _ (iblk m c 0 t) (iblk m c 1 t) b o p q (fun i => ?_) (fun i => ?_)
  · have hi : i.val < 1024 := i.isLt
    show (V m c main_v0 : S1024x512.Idx → EReal) (((cfg0.win 0).blk t).view.emb (ix2 i p)) = _
    rw [V_xt]
    refine transposed_apply _ _ _ i b ?_ ?_
    · show win0_0.index t (0 : Fin 2) * 1024 + 1 * i.val = i.val; omega
    · show win0_0.index t (1 : Fin 2) * 256 + 1 * p.val = win0_2.index t (0 : Fin 2) * 256 + p.val; omega
  · have hi : i.val < 1024 := i.isLt
    show (V m c main_v1 : S1024x512.Idx → EReal) (((cfg0.win 1).blk t).view.emb (ix2 i q)) = _
    rw [V_wt]
    refine transposed_apply _ _ _ i o ?_ ?_
    · show win0_1.index t (0 : Fin 2) * 1024 + 1 * i.val = i.val; omega
    · show win0_1.index t (1 : Fin 2) * 256 + 1 * q.val = win0_2.index t (1 : Fin 2) * 256 + q.val; omega

/-- An index of the result array is in point `t`'s block iff each coordinate is in the block's range on its axis. -/
theorem mem_blk (t : Fin cfg0.N) (i : S512x512.Idx) :
    i ∈ ((cfg0.win 2).blk t).view.set ↔ ∀ a : Fin 2, win0_2.index t a * S256x256.size a ≤ (i a).val ∧ (i a).val < win0_2.index t a * S256x256.size a + S256x256.size a := by
  show i ∈ ((View.whole main_v2).slice (win0_2.rect t)).set ↔ _
  rw [View.set_slice_whole, Rect.mem_set_unit]
  exact Iff.rfl

/-- The four blocks tile the result: row r lies in row block r / 256, column likewise. -/
theorem cover (i : S512x512.Idx) : ∃ t : Fin cfg0.N, (cfg0.win 2).flush t = true ∧ i ∈ ((cfg0.win 2).blk t).view.set := by
  have hi0 : (i 0).val < 512 := (i 0).isLt
  have hi1 : (i 1).val < 512 := (i 1).isLt
  obtain ⟨t, ht⟩ := idx_onto ⟨(i 0).val / 256, by omega⟩ ⟨(i 1).val / 256, by omega⟩
  have q0 : win0_2.index t (0 : Fin 2) = (i 0).val / 256 := congrFun ht 0
  have q1 : win0_2.index t (1 : Fin 2) = (i 1).val / 256 := congrFun ht 1
  refine ⟨t, flush0_2 t, ?_⟩
  rw [mem_blk]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 256 ≤ (i 1).val ∧ (i 1).val < win0_2.index t (1 : Fin 2) * 256 + 256; omega

/-- THE RESULT ARRAY after the run is the max-plus product of the two arguments. -/
theorem final (c : Dev nD) : (dats m 0 c).arrAt 2 cfg0.N
    = Cert.MaxPlus.maxPlus (m ((c : Thread nD τ).loc main_arg0)) (m ((c : Thread nD τ).loc main_arg1)) :=
  (dats m 0 c).arrAt_eq_of_cover 2 _ (fun t _ => flushed_eq m c t) cover

/-- The kernel's run, read: the result at the max-plus product, the arguments unchanged. -/
theorem run : θ_run defs (onTc (τ := τ) (main (F := Ideal))) ⟨m, fun _ => 0, ρ⟩ fun r => ∀ c : Dev nD,
      r.2.mem ((c : Thread nD τ).loc main_v2)
        = Cert.MaxPlus.maxPlus (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Whole

end
-- ==== Proof.RefValue.lean ====
/-
  The reference, read at one entry.  It broadcasts W to [1, 512, 1024] and x to [512, 1, 1024], both on to
  [512, 512, 1024], adds them, and takes the maximum over the last axis from −∞: at (b, o) the maximum over i of
  W[o, i] + x[b, i] — the max-plus product, term for term.
-/
import proofs.«137153_j64433099374740_2_alg».proof.Proof.Gen.ReferenceIdeal.Read
import proofs.«137153_j64433099374740_2_alg».proof.Proof.MaxPlus
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

theorem reduces_last : S512x512x1024.Reduces [2] S512x512 := by decide

/-- Reduced index (b, o) with coordinate `i` put back on the dropped last axis is (b, o, i). -/
theorem lift_eq (b o : Fin 512) (i : Fin 1024) : reduces_last.lift (ix2 b o) i = ix3 b o i := by
  funext c; apply Fin.ext
  fin_cases c <;> rfl

/-- The broadcast of W read at (b, o, i) is W at (o, i). -/
theorem idx_W (b o : Fin 512) (i : Fin 1024) : idx_main_v0 (idx_main_v2 (ix3 b o i)) = ix2 o i :=
  funext fun a => Fin.ext (by match a with | ⟨0, _⟩ => rfl | ⟨1, _⟩ => rfl)

/-- The broadcast of x read at (b, o, i) is x at (b, i). -/
theorem idx_x (b o : Fin 512) (i : Fin 1024) : idx_main_v1 (idx_main_v3 (ix3 b o i)) = ix2 b i :=
  funext fun a => Fin.ext (by match a with | ⟨0, _⟩ => rfl | ⟨1, _⟩ => rfl)

/-- THE REFERENCE IS THE MAX-PLUS PRODUCT of its two arguments. -/
theorem val_eq_maxPlus (x0 x1 : S512x1024.Idx → EReal) :
    val_main_v5 (F := Ideal) x0 x1 = Cert.MaxPlus.maxPlus x0 x1 := by
  funext j
  obtain ⟨b, o, rfl⟩ : ∃ (b o : Fin 512), j = ix2 b o := ⟨j 0, j 1, eq_ix2 j⟩
  unfold val_main_v5
  refine (Host.reduce_eq_fold_single FloatOps.maximumf _ _ reducesTo_S512x512x1024_S512x512_d2 reduces_last h_S_ (ix2 b o)).trans ?_
  show (Finset.univ : Finset (Fin 1024)).fold max (Ideal.ofBits .f32 0xFF800000#32) _ = (Finset.univ : Finset (Fin 1024)).fold max ⊥ _
  rw [Cert.MaxPlus.negInf]
  refine congrArg (fun f => (Finset.univ : Finset (Fin 1024)).fold max ⊥ f) (funext fun (i : Fin 1024) => ?_)
  show val_main_v4 (F := Ideal) x0 x1 (reduces_last.lift (ix2 b o) i) = x1 (ix2 o i) + x0 (ix2 b i)
  rw [lift_eq, val_main_v4_apply, val_main_v2_apply, val_main_v0_apply, val_main_v3_apply, val_main_v1_apply, idx_W, idx_x]
  rfl

end Cert.ReferenceIdeal.RefValue

end
-- ==== Proof.Claims.lean ====
/-
  The five claims.  The three frames are the generated ones (the reference's is its run with the result dropped);
  the idealization rewrote nothing, so `preserves` is trivial; and at the ideal instance both programs leave the
  max-plus product of their arguments in the result —  out[b, o] = max over i of W[o, i] + x[b, i]  on the extended
  reals, the empty maximum −∞ —: the kernel by 32 chunked maxima per block over a 2 × 2 grid of blocks of the transposed
  arguments, the reference by one maximum over the last axis of the broadcast sum.
-/
import proofs.«137153_j64433099374740_2_alg».proof.Defs
import proofs.«137153_j64433099374740_2_alg».proof.Proof.Gen.Kernel.Frame
import proofs.«137153_j64433099374740_2_alg».proof.Proof.Gen.Pre_finite_inputs
import proofs.«137153_j64433099374740_2_alg».proof.Proof.KernelValue
import proofs.«137153_j64433099374740_2_alg».proof.Proof.RefValue

noncomputable section

namespace Cert.Proof.Claims

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on x and W, both runs end with the result at the max-plus product of x and W. -/
theorem algebraic : Cert.algebraic_KernelIdeal_ReferenceIdeal := by
  intro m ρ m' ρ' _ hagree
  refine ⟨fun c => Cert.MaxPlus.maxPlus (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.val_eq_maxPlus, (hagree c).1, (hagree c).2]

end Cert.Proof.Claims

end
-- ==== Proof.lean ====
/-
  The certificate of the max-plus ("tropical") linear layer  out[b, o] = max over i of W[o, i] + x[b, i],
  x and W both 512 × 1024.  The kernel transposes both arguments, runs a 2 × 2 grid over 256 × 256 blocks of the result,
  and in each block walks the 1024 inner coordinates 32 at a time, folding each chunk's maximum into an accumulator that
  starts at −∞; the reference takes one maximum over the last axis of the broadcast sum.  On the extended reals both are
  the same function of x and W (Proof/MaxPlus.lean states it; Proof/Claims.lean assembles the five claims).
-/
import proofs.«137153_j64433099374740_2_alg».proof.Defs
import proofs.«137153_j64433099374740_2_alg».proof.Proof.Gen.Kernel
import proofs.«137153_j64433099374740_2_alg».proof.Proof.Gen.Kernel.Skeleton
import proofs.«137153_j64433099374740_2_alg».proof.Proof.Gen.Kernel.Loops
import proofs.«137153_j64433099374740_2_alg».proof.Proof.Gen.Kernel.Launch
import proofs.«137153_j64433099374740_2_alg».proof.Proof.Gen.Kernel.Points
import proofs.«137153_j64433099374740_2_alg».proof.Proof.Gen.Kernel.Frame
import proofs.«137153_j64433099374740_2_alg».proof.Proof.Gen.KernelIdeal
import proofs.«137153_j64433099374740_2_alg».proof.Proof.Gen.KernelIdeal.Skeleton
import proofs.«137153_j64433099374740_2_alg».proof.Proof.Gen.KernelIdeal.Loops
import proofs.«137153_j64433099374740_2_alg».proof.Proof.Gen.KernelIdeal.Launch
import proofs.«137153_j64433099374740_2_alg».proof.Proof.Gen.KernelIdeal.Points
import proofs.«137153_j64433099374740_2_alg».proof.Proof.Gen.KernelIdeal.Frame
import proofs.«137153_j64433099374740_2_alg».proof.Proof.Gen.ReferenceIdeal
import proofs.«137153_j64433099374740_2_alg».proof.Proof.Gen.KernelIdeal.Value
import proofs.«137153_j64433099374740_2_alg».proof.Proof.Gen.ReferenceIdeal.Run
import proofs.«137153_j64433099374740_2_alg».proof.Proof.Gen.ReferenceIdeal.Read
import proofs.«137153_j64433099374740_2_alg».proof.Proof.Gen.Pre_finite_inputs
import proofs.«137153_j64433099374740_2_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_kernel, Claims.frame_kernelIdeal, Claims.frame_referenceIdeal, Claims.preserves, Claims.algebraic⟩

end Cert.Proof

end
